-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v60) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S32x1 1) : IVec S_ 1 :=
  let main_c_5 : IVec S_ 1 := constantI S_ 1 1#1
  let main_v17 : IVec S_ 1 := (fun x v => Host.reduce IntOp.andi x v reducesTo_S32x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x32 .f32) (main_arg3 : FVec F S32 .f32) (main_arg4 : FVec F S32x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x1 .f32 := Host.absf main_arg4
  let main_cst_4 : FVec F S_ .f32 := constant S_ .f32 0x7F800000#32
  let main_v15 : FVec F S32x1 .f32 := broadcastInDim S32x1 ![] bcast_S_S32x1 main_cst_4
  let main_v16 : IVec S32x1 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S10000x128 : Shape := ⟨2, ![10000, 128]⟩
abbrev S10000x32 : Shape := ⟨2, ![10000, 32]⟩
abbrev S3300000x32 : Shape := ⟨2, ![3300000, 32]⟩
abbrev S1x32 : Shape := ⟨2, ![1, 32]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 81
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x1, .f32⟩
  | .hbm, ⟨5, _⟩ => ⟨S1, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3300000, .i32⟩
  | .hbm, ⟨22, _⟩ => ⟨S3300000, .i1⟩
  | .hbm, ⟨23, _⟩ => ⟨S_, .i32⟩
  | .hbm, ⟨24, _⟩ => ⟨S3300000, .i32⟩
  | .hbm, ⟨25, _⟩ => ⟨S3300000, .i32⟩
  | .hbm, ⟨26, _⟩ => ⟨S3300000, .i32⟩
  | .hbm, ⟨27, _⟩ => ⟨S3300000x1, .i32⟩
  | .hbm, ⟨28, _⟩ => ⟨S3300000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S3300000x1, .f32⟩
  | .hbm, ⟨40, _⟩ => ⟨S100000x32, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000x32, .f32⟩
  | .hbm, ⟨50, _⟩ => ⟨S3300000x32, .f32⟩
  | .hbm, ⟨51, _⟩ => ⟨S3300000x32, .f32⟩
  | .hbm, ⟨52, _⟩ => ⟨S_, .f32⟩
  | .hbm, ⟨53, _⟩ => ⟨S100000x32, .f32⟩
  | .hbm, ⟨54, _⟩ => ⟨S3300000x1, .i32⟩
  | .hbm, ⟨55, _⟩ => ⟨S100000x32, .f32⟩
  | .hbm, ⟨56, _⟩ => ⟨S1x32, .f32⟩
  | .hbm, ⟨57, _⟩ => ⟨S100000x32, .f32⟩
  | .hbm, ⟨58, _⟩ => ⟨S100000x32, .f32⟩
  | .hbm, ⟨59, _⟩ => ⟨S_, .f32⟩
  | .hbm, ⟨60, _⟩ => ⟨S100000x32, .f32⟩
  | .hbm, ⟨61, _⟩ => ⟨S100000x32, .f32⟩
  | .hbm, ⟨62, _⟩ => ⟨S100000x1, .f32⟩
  | .hbm, ⟨63, _⟩ => ⟨S_, .i32⟩
  | .hbm, ⟨64, _⟩ => ⟨S3300000, .i32⟩
  | .hbm, ⟨65, _⟩ => ⟨S3300000, .i1⟩
  | .hbm, ⟨66, _⟩ => ⟨S_, .i32⟩
  | .hbm, ⟨67, _⟩ => ⟨S3300000, .i32⟩
  | .hbm, ⟨68, _⟩ => ⟨S3300000, .i32⟩
  | .hbm, ⟨69, _⟩ => ⟨S3300000, .i32⟩
  | .hbm, ⟨70, _⟩ => ⟨S3300000x1, .i32⟩
  | .hbm, ⟨71, _⟩ => ⟨S3300000x1, .f32⟩
  | .hbm, ⟨72, _⟩ => ⟨S3300000x1, .f32⟩
  | .hbm, ⟨73, _⟩ => ⟨S_, .f32⟩
  | .hbm, ⟨74, _⟩ => ⟨S100000x1, .f32⟩
  | .hbm, ⟨75, _⟩ => ⟨S3300000x1, .i32⟩
  | .hbm, ⟨76, _⟩ => ⟨S100000x1, .f32⟩
  | .hbm, ⟨77, _⟩ => ⟨S1x1, .f32⟩
  | .hbm, ⟨78, _⟩ => ⟨S100000x1, .f32⟩
  | .hbm, ⟨79, _⟩ => ⟨S100000x1, .f32⟩
  | .hbm, ⟨80, _⟩ => ⟨S100000, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S32x1, .f32⟩
  | .local _ .vmem, ⟨8, _⟩ => ⟨S10000x1, .f32⟩
  | .local _ .vmem, ⟨9, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S10000x32_S10000x32 : S10000x32.ShapeCasts S10000x32
  inb_S32x1_S32x1_0_0 : ∀ a, (![0, 0] : Fin 2 → Nat) a + S32x1.size a ≤ S32x1.size a
  h_S32x1 : 0 < S32x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x32_S10000x32_1_0_0_1_n_n_wf : DotDims.WF S10000x128 S128x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x1_S10000x1_1_0_0_1_n_n_wf : DotDims.WF S10000x32 S32x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x1.size a ≤ S32x1.size a
  hwx1_1 : ∀ i : grid1.Coords, EltTy.bits .f32 = 32 ∨ (Rect.block (s := S32x1) S32x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S100000x32 : Shape := ⟨2, ![100000, 32]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x1, .f32⟩
  | .hbm, ⟨5, _⟩ => ⟨S1, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x32, .f32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S3300000, .i32⟩
  | .hbm, ⟨23, _⟩ => ⟨S3300000, .i1⟩
  | .hbm, ⟨24, _⟩ => ⟨S_, .i32⟩
  | .hbm, ⟨25, _⟩ => ⟨S3300000, .i32⟩
  | .hbm, ⟨26, _⟩ => ⟨S3300000, .i32⟩
  | .hbm, ⟨27, _⟩ => ⟨S3300000, .i32⟩
  | .hbm, ⟨28, _⟩ => ⟨S3300000x1, .i32⟩
  | .hbm, ⟨29, _⟩ => ⟨S3300000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x32, .f32⟩
  | .hbm, ⟨49, _⟩ => ⟨S3300000x1, .f32⟩
  | .hbm, ⟨50, _⟩ => ⟨S3300000x32, .f32⟩
  | .hbm, ⟨51, _⟩ => ⟨S3300000x32, .f32⟩
  | .hbm, ⟨52, _⟩ => ⟨S_, .f32⟩
  | .hbm, ⟨53, _⟩ => ⟨S100000x32, .f32⟩
  | .hbm, ⟨54, _⟩ => ⟨S3300000x1, .i32⟩
  | .hbm, ⟨55, _⟩ => ⟨S100000x32, .f32⟩
  | .hbm, ⟨56, _⟩ => ⟨S1x32, .f32⟩
  | .hbm, ⟨57, _⟩ => ⟨S100000x32, .f32⟩
  | .hbm, ⟨58, _⟩ => ⟨S100000x32, .f32⟩
  | .hbm, ⟨59, _⟩ => ⟨S_, .f32⟩
  | .hbm, ⟨60, _⟩ => ⟨S100000x32, .f32⟩
  | .hbm, ⟨61, _⟩ => ⟨S100000x32, .f32⟩
  | .hbm, ⟨62, _⟩ => ⟨S100000x1, .f32⟩
  | .hbm, ⟨63, _⟩ => ⟨S100000, .i32⟩
  | .hbm, ⟨64, _⟩ => ⟨S3300000, .i32⟩
  | .hbm, ⟨65, _⟩ => ⟨S3300000, .i32⟩
  | .hbm, ⟨66, _⟩ => ⟨S_, .f32⟩
  | .hbm, ⟨67, _⟩ => ⟨S3300000, .f32⟩
  | .hbm, ⟨68, _⟩ => ⟨S_, .f32⟩
  | .hbm, ⟨69, _⟩ => ⟨S100000, .f32⟩
  | .hbm, ⟨70, _⟩ => ⟨S3300000x1, .i32⟩
  | .hbm, ⟨71, _⟩ => ⟨S100000, .f32⟩
  | .hbm, ⟨72, _⟩ => ⟨S100000, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000, .f32⟩
  | .hbm, ⟨82, _⟩ => ⟨S_, .i32⟩
  | .hbm, ⟨83, _⟩ => ⟨S3300000, .i32⟩
  | .hbm, ⟨84, _⟩ => ⟨S3300000, .i1⟩
  | .hbm, ⟨85, _⟩ => ⟨S_, .i32⟩
  | .hbm, ⟨86, _⟩ => ⟨S3300000, .i32⟩
  | .hbm, ⟨87, _⟩ => ⟨S3300000, .i32⟩
  | .hbm, ⟨88, _⟩ => ⟨S3300000, .i32⟩
  | .hbm, ⟨89, _⟩ => ⟨S3300000x1, .i32⟩
  | .hbm, ⟨90, _⟩ => ⟨S3300000, .f32⟩
  | .hbm, ⟨91, _⟩ => ⟨S3300000, .f32⟩
  | .hbm, ⟨92, _⟩ => ⟨S_, .i32⟩
  | .hbm, ⟨93, _⟩ => ⟨S3300000, .i32⟩
  | .hbm, ⟨94, _⟩ => ⟨S3300000, .i1⟩
  | .hbm, ⟨95, _⟩ => ⟨S_, .i32⟩
  | .hbm, ⟨96, _⟩ => ⟨S3300000, .i32⟩
  | .hbm, ⟨97, _⟩ => ⟨S3300000, .i32⟩
  | .hbm, ⟨98, _⟩ => ⟨S3300000, .i32⟩
  | .hbm, ⟨99, _⟩ => ⟨S3300000x1, .i32⟩
  | .hbm, ⟨100, _⟩ => ⟨S3300000x1, .f32⟩
  | .hbm, ⟨101, _⟩ => ⟨S3300000x1, .f32⟩
  | .hbm, ⟨102, _⟩ => ⟨S3300000x1, .f32⟩
  | .hbm, ⟨103, _⟩ => ⟨S_, .f32⟩
  | .hbm, ⟨104, _⟩ => ⟨S100000x1, .f32⟩
  | .hbm, ⟨105, _⟩ => ⟨S3300000x1, .i32⟩
  | .hbm, ⟨106, _⟩ => ⟨S100000x1, .f32⟩
  | .hbm, ⟨107, _⟩ => ⟨S1x1, .f32⟩
  | .hbm, ⟨108, _⟩ => ⟨S100000x1, .f32⟩
  | .hbm, ⟨109, _⟩ => ⟨S100000x1, .f32⟩
  | .hbm, ⟨110, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_9 : Ref sig .tc := ⟨.hbm, 73, rfl⟩
abbrev main_v54 : Ref sig .tc := ⟨.hbm, 74, rfl⟩
abbrev main_v55 : Ref sig .tc := ⟨.hbm, 75, rfl⟩
abbrev main_c_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_13 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_15 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x128_S128x32_S100000x32_1_0_0_1_n_n_wf : DotDims.WF S100000x128 S128x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x1_S100000x1_1_0_0_1_n_n_wf : DotDims.WF S100000x32 S32x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.KernelRun.lean ====
/-
  The kernel program's run, with its two results named.

  The program is six segments in a row: a stretch of host operations, the first dense kernel, two more stretches (the
  second is the body of the `max(·, 0)` call), the second dense kernel, and a last stretch. Every weakly fair
  execution runs them in order without a fault; at the end every buffer outside the kernels' scratch holds what the
  fold of the six segments over the launch memory leaves in it (`W6`). The two returned buffers are therefore `W6` at
  `main_v44` and `main_v60`, and the six arguments are as launched. This holds for every float instance; what `W6`
  is at the two results is worked out separately.
-/
import proofs.«127349_j28578712387808_2_alg».proof.Proof.Gen.KernelIdeal.Frame

set_option maxRecDepth 16384

noncomputable section

namespace Cert.Graph.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program terminates without a fault; its two results end at the last
    boundary's contents `W6` and its arguments as launched. -/
theorem run_named : θ_run defs (onTc (τ := τ) (main (F := F))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_v60) = W6 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44 (by decide)),
       h c _ (mem_uc main_v60 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.Graph.KernelRun

end
-- ==== Proof.GraphStages.lean ====
/-
  The graph side of a two-layer graph convolution, as whole-array functions.

  Every edge (s, d) of the edge array, followed by one self-loop (v, v) per node, carries a message from s to d.
  The in-degree of a node counts the messages that reach it, `dinv = deg^(-1/2)`, and message j is weighted by
  `dinv(s_j) · dinv(d_j)`. A layer takes a node table `t` (the features already multiplied by the layer's weight
  matrix), gathers row s_j of it for every message, scales it by the message's weight, adds it into row d_j of a zero
  table, and adds the bias row to every node. The first layer is followed by max(·, 0); the second has one column,
  which is dropped at the end.

  The functions below spell these steps with the host operations themselves (a negative index is first moved up by
  the number of nodes, as the host's indexing does), for any float instance. Nothing is evaluated here: both
  programs are compared by meeting these same terms.
-/
import proofs.«127349_j28578712387808_2_alg».proof.Proof.Gen.KernelIdeal

noncomputable section

namespace Cert.Graph

open Idealize.ShloMosaic Cert.KernelIdeal Cert.KernelIdeal.Gen

variable {F : FTy → Type} [FloatOps F]

/-- The contents of a buffer of the given shape and element type. -/
abbrev Arr (F : FTy → Type) (S : Shape) (e : EltTy) : Type := (⟨S, e⟩ : BufTy).Contents (Elt F)

/-- The sources of all messages: row 0 of the edge array, then the nodes 0 … 99999 (the self-loops). -/
def srcAll (e : Arr F S2x3200000 .i32) : Arr F S3300000 .i32 :=
  concatenate S3300000 0
    [⟨S3200000, shapeCast S3200000 (extractStridedSlice S1x3200000 ![0, 0] e slices_S2x3200000_S1x3200000_0_0) shapeCasts_S1x3200000_S3200000⟩,
     ⟨S100000, iotaInDim S100000 32 0⟩] concatenates_S3200000_S100000_S3300000_d0

/-- The destinations of all messages: row 1 of the edge array, then the nodes 0 … 99999. -/
def dstAll (e : Arr F S2x3200000 .i32) : Arr F S3300000 .i32 :=
  concatenate S3300000 0
    [⟨S3200000, shapeCast S3200000 (extractStridedSlice S1x3200000 ![1, 0] e slices_S2x3200000_S1x3200000_1_0) shapeCasts_S1x3200000_S3200000⟩,
     ⟨S100000, iotaInDim S100000 32 0⟩] concatenates_S3200000_S100000_S3300000_d0

/-- A list of node numbers as a column of gather positions: a negative number is moved up by the number of nodes. -/
def wrap (i : Arr F S3300000 .i32) : Arr F S3300000x1 .i32 :=
  broadcastInDim S3300000x1 ![0] bcast_S3300000_S3300000x1_0
    (select (cmpi .slt i (broadcastInDim S3300000 ![] bcast_S_S3300000 (constantI S_ 32 0#32)))
      (addi i (broadcastInDim S3300000 ![] bcast_S_S3300000 (constantI S_ 32 100000#32))) i)

/-- deg^(-1/2) per node, the degree counting the messages that arrive at the node: ones added into a zero vector
    at the destinations. -/
def dinv (dst : Arr F S3300000 .i32) : Arr F S100000 .f32 :=
  Host.rsqrt (Host.scatterAdd scatter_S100000_S3300000x1_S3300000_n_0_0_1
    (broadcastInDim S100000 ![] bcast_S_S100000 (constant S_ .f32 0x00000000#32))
    (broadcastInDim S3300000x1 ![0] bcast_S3300000_S3300000x1_0 dst)
    (broadcastInDim S3300000 ![] bcast_S_S3300000 (constant S_ .f32 0x3F800000#32)))

/-- The weight of every message, dinv(source) · dinv(destination), as a column. -/
def normCol (src dst : Arr F S3300000 .i32) : Arr F S3300000x1 .f32 :=
  broadcastInDim S3300000x1 ![0] bcast_S3300000_S3300000x1_0
    (mulf (Host.gather gather_S100000_S3300000x1_S3300000_n_0_n_n_0_1_1 (dinv dst) (wrap src))
      (Host.gather gather_S100000_S3300000x1_S3300000_n_0_n_n_0_1_1 (dinv dst) (wrap dst)))

/-- Message passing over a 32-column node table `t`, then the bias row `b` on every node. -/
def conv32 (t : Arr F S100000x32 .f32) (src dst : Arr F S3300000 .i32) (nrm : Arr F S3300000x1 .f32)
    (b : Arr F S32 .f32) : Arr F S100000x32 .f32 :=
  addf
    (Host.scatterAdd scatter_S100000x32_S3300000x1_S3300000x32_1_0_0_1
      (broadcastInDim S100000x32 ![] bcast_S_S100000x32 (constant S_ .f32 0x00000000#32))
      (broadcastInDim S3300000x1 ![0] bcast_S3300000_S3300000x1_0 dst)
      (mulf (Host.gather gather_S100000x32_S3300000x1_S3300000x32_1_0_n_n_0_1_132 t (wrap src))
        (broadcastInDim S3300000x32 ![0, 1] bcast_S3300000x1_S3300000x32_0_1 nrm)))
    (broadcastInDim S100000x32 ![0, 1] bcast_S1x32_S100000x32_0_1 (broadcastInDim S1x32 ![1] bcast_S32_S1x32_1 b))

/-- max(·, 0) on a 32-column node table. -/
def relu32 (v : Arr F S100000x32 .f32) : Arr F S100000x32 .f32 :=
  maximumf v (broadcastInDim S100000x32 ![] bcast_S_S100000x32 (constant S_ .f32 0x00000000#32))

/-- Message passing over a one-column node table `t`, the bias `b` on every node, the column read as a vector. -/
def conv1 (t : Arr F S100000x1 .f32) (src dst : Arr F S3300000 .i32) (nrm : Arr F S3300000x1 .f32)
    (b : Arr F S1 .f32) : Arr F S100000 .f32 :=
  shapeCast S100000
    (addf
      (Host.scatterAdd scatter_S100000x1_S3300000x1_S3300000x1_1_0_0_1
        (broadcastInDim S100000x1 ![] bcast_S_S100000x1 (constant S_ .f32 0x00000000#32))
        (broadcastInDim S3300000x1 ![0] bcast_S3300000_S3300000x1_0 dst)
        (mulf (Host.gather gather_S100000x1_S3300000x1_S3300000x1_1_0_n_n_0_1_11 t (wrap src)) nrm))
      (broadcastInDim S100000x1 ![0, 1] bcast_S1x1_S100000x1_0_1 (broadcastInDim S1x1 ![1] bcast_S1_S1x1_1 b)))
    shapeCasts_S100000x1_S100000

/-- The first layer from the table `x · W1`, the edge array and the bias. -/
def layer1 (t : Arr F S100000x32 .f32) (e : Arr F S2x3200000 .i32) (b : Arr F S32 .f32) : Arr F S100000x32 .f32 :=
  relu32 (conv32 t (srcAll e) (dstAll e) (normCol (srcAll e) (dstAll e)) b)

/-- The second layer from the table `h · W2`, the edge array and the bias. -/
def layer2 (t : Arr F S100000x1 .f32) (e : Arr F S2x3200000 .i32) (b : Arr F S1 .f32) : Arr F S100000 .f32 :=
  conv1 t (srcAll e) (dstAll e) (normCol (srcAll e) (dstAll e)) b

end Cert.Graph

end
-- ==== Proof.HostStretches.lean ====
/-
  The kernel program's host stretches, read back as the graph's stage functions.

  Between the two dense products the kernel program runs three stretches of host operations. From ANY buffer
  contents `X` — so that the same lemma serves every boundary of the run — the first stretch leaves the message
  sources, destinations and weights (functions of the edge array alone); the second, with the `max(·, 0)` call that
  follows it, leaves the first layer's output as `relu32 ∘ conv32` of the node table it finds; the third leaves the
  second layer's output as `conv1` of the one-column table it finds. Every other buffer the later steps read passes
  through a stretch untouched.
-/
import proofs.«127349_j28578712387808_2_alg».proof.Proof.Gen.KernelIdeal.Launch
import proofs.«127349_j28578712387808_2_alg».proof.Proof.GraphStages
import Idealize.ShloMosaic.Lib.StableHlo.Run

noncomputable section

namespace Cert.Graph.Host

open Idealize.ShloMosaic Idealize.ShloMosaic.TcCoe Cert.KernelIdeal Cert.KernelIdeal.Gen Cert.Graph

variable {F : FTy → Type} [FloatOps F]

/-! ## The first stretch: sources, destinations, weights -/

theorem first_src (X : Valuation τ sig (Elt F)) :
    StableHlo.after hostOps0 X (Proc.devRef .tc main_v5) = srcAll (X (Proc.devRef .tc main_arg1)) := by
  after_results; rfl

theorem first_dst (X : Valuation τ sig (Elt F)) :
    StableHlo.after hostOps0 X (Proc.devRef .tc main_v6) = dstAll (X (Proc.devRef .tc main_arg1)) := by
  after_results; rfl

set_option maxHeartbeats 2000000 in
theorem first_nrm (X : Valuation τ sig (Elt F)) :
    StableHlo.after hostOps0 X (Proc.devRef .tc main_v27)
      = normCol (srcAll (X (Proc.devRef .tc main_arg1))) (dstAll (X (Proc.devRef .tc main_arg1))) := by
  after_results_simp
  rfl

theorem first_arg0 (X : Valuation τ sig (Elt F)) :
    StableHlo.after hostOps0 X (Proc.devRef .tc main_arg0) = X (Proc.devRef .tc main_arg0) := by after_results
theorem first_arg2 (X : Valuation τ sig (Elt F)) :
    StableHlo.after hostOps0 X (Proc.devRef .tc main_arg2) = X (Proc.devRef .tc main_arg2) := by after_results
theorem first_arg3 (X : Valuation τ sig (Elt F)) :
    StableHlo.after hostOps0 X (Proc.devRef .tc main_arg3) = X (Proc.devRef .tc main_arg3) := by after_results
theorem first_arg4 (X : Valuation τ sig (Elt F)) :
    StableHlo.after hostOps0 X (Proc.devRef .tc main_arg4) = X (Proc.devRef .tc main_arg4) := by after_results
theorem first_arg5 (X : Valuation τ sig (Elt F)) :
    StableHlo.after hostOps0 X (Proc.devRef .tc main_arg5) = X (Proc.devRef .tc main_arg5) := by after_results

/-! ## The second stretch and the `max(·, 0)` call: the first layer from the node table found in `main_v28` -/

set_option maxHeartbeats 2000000 in
theorem second_out (X : Valuation τ sig (Elt F)) :
    StableHlo.after hostOps1_1 (StableHlo.after hostOps1 X) (Proc.devRef .tc main_v44)
      = relu32 (conv32 (X (Proc.devRef .tc main_v28)) (X (Proc.devRef .tc main_v5)) (X (Proc.devRef .tc main_v6))
          (X (Proc.devRef .tc main_v27)) (X (Proc.devRef .tc main_arg3))) := by
  after_results_simp
  rfl

theorem second_src (X : Valuation τ sig (Elt F)) :
    StableHlo.after hostOps1_1 (StableHlo.after hostOps1 X) (Proc.devRef .tc main_v5) = X (Proc.devRef .tc main_v5) := by
  after_results
theorem second_dst (X : Valuation τ sig (Elt F)) :
    StableHlo.after hostOps1_1 (StableHlo.after hostOps1 X) (Proc.devRef .tc main_v6) = X (Proc.devRef .tc main_v6) := by
  after_results
theorem second_nrm (X : Valuation τ sig (Elt F)) :
    StableHlo.after hostOps1_1 (StableHlo.after hostOps1 X) (Proc.devRef .tc main_v27) = X (Proc.devRef .tc main_v27) := by
  after_results
theorem second_arg4 (X : Valuation τ sig (Elt F)) :
    StableHlo.after hostOps1_1 (StableHlo.after hostOps1 X) (Proc.devRef .tc main_arg4) = X (Proc.devRef .tc main_arg4) := by
  after_results
theorem second_arg5 (X : Valuation τ sig (Elt F)) :
    StableHlo.after hostOps1_1 (StableHlo.after hostOps1 X) (Proc.devRef .tc main_arg5) = X (Proc.devRef .tc main_arg5) := by
  after_results

/-! ## The third stretch: the second layer from the one-column table found in `main_v45` -/

set_option maxHeartbeats 2000000 in
theorem third_out (X : Valuation τ sig (Elt F)) :
    StableHlo.after hostOps2 X (Proc.devRef .tc main_v60)
      = conv1 (X (Proc.devRef .tc main_v45)) (X (Proc.devRef .tc main_v5)) (X (Proc.devRef .tc main_v6))
          (X (Proc.devRef .tc main_v27)) (X (Proc.devRef .tc main_arg5)) := by
  after_results_simp
  rfl

theorem third_h (X : Valuation τ sig (Elt F)) :
    StableHlo.after hostOps2 X (Proc.devRef .tc main_v44) = X (Proc.devRef .tc main_v44) := by after_results

end Cert.Graph.Host

end
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.LibMatProd.lean ====
/-
  Plain matrix products as whole arrays, over the extended reals.

  `mprod l r` is the rows×inner by inner×cols product read entry by entry: at (a, b) the sum over k of
  l(a, k) · r(k, b). A `tpu.matmul` into the zero accumulator and the host's `dot_general` whose dimension record reads
  its operands plainly (LibPlainDot's `Reads`) ARE this array, whatever the extents, so a kernel's product of a row
  block and a reference's product of the whole array meet in one function; and the product is ROW-LOCAL: row a of
  l' · r is row p of l · r as soon as row a of l' is row p of l — what makes a row block of a product computed from a
  row block of the left operand that block of the whole product. No finiteness is involved.
-/
import Idealize.ShloMosaic.Lib.ValueIdx
import Idealize.ShloMosaic.PureOps.Ideal.Laws
import proofs.«127349_j28578712387808_2_alg».proof.Proof.LibPlainDot

noncomputable section

namespace Cert.Lib.MatProd

open Idealize.ShloMosaic Idealize.ShloMosaic.ValueIdx Cert.Lib.PlainDot

/-- A rank-2 shape of the given extents. -/
abbrev Sh (a b : ℕ) : Shape := ⟨2, ![a, b]⟩

/-- The coordinates of an index of a rank-2 shape, typed by the extents. -/
abbrev row {R C : ℕ} (j : (Sh R C).Idx) : Fin R := ⟨(j 0).val, (j 0).isLt⟩
abbrev col {R C : ℕ} (j : (Sh R C).Idx) : Fin C := ⟨(j 1).val, (j 1).isLt⟩

/-- A rows×inner by inner×cols product at (a, b): the sum over k of l(a, k) · r(k, b). -/
def mprod {R K C : ℕ} (l : FVec Ideal (Sh R K) .f32) (r : FVec Ideal (Sh K C) .f32) : FVec Ideal (Sh R C) .f32 :=
  fun j => ∑ k : Fin K, l (ix2 (row j) k) * r (ix2 k (col j))

variable {R K C : ℕ}

/-- A `tpu.matmul` into the zero accumulator whose record reads its operands plainly is the product. -/
theorem matmul_eq_mprod {d : DotDims (Sh R K) (Sh K C) (Sh R C)} (h : Reads d) (prec : Option ContractPrecision)
    (l : FVec Ideal (Sh R K) .f32) (r : FVec Ideal (Sh K C) .f32) :
    FloatOps.matmul d prec l r (constant (Sh R C) .f32 0x00000000#32) = mprod l r := by
  funext j
  obtain ⟨a, b, rfl⟩ : ∃ (a : Fin R) (b : Fin C), j = ix2 a b := ⟨j 0, j 1, eq_ix2 j⟩
  exact matmul_zero_apply h prec l r a b

/-- The host's `dot_general` with such a record is the product. -/
theorem dotGeneral_eq_mprod {d : DotDims (Sh R K) (Sh K C) (Sh R C)} (h : Reads d) (prec : Option ContractPrecision)
    (sched : HostSchedule) (l : FVec Ideal (Sh R K) .f32) (r : FVec Ideal (Sh K C) .f32) :
    FloatOps.dotGeneral d prec sched l r = mprod l r := by
  funext j
  obtain ⟨a, b, rfl⟩ : ∃ (a : Fin R) (b : Fin C), j = ix2 a b := ⟨j 0, j 1, eq_ix2 j⟩
  exact dotGeneral_apply h prec sched l r a b

/-- Row locality of a product: row a of l' · r is row p of l · r when row a of l' is row p of l. -/
theorem mprod_row {R' : ℕ} (l' : FVec Ideal (Sh R' K) .f32) (l : FVec Ideal (Sh R K) .f32) (r : FVec Ideal (Sh K C) .f32)
    (a : Fin R') (p : Fin R) (h : ∀ k : Fin K, l' (ix2 a k) = l (ix2 p k)) (b : Fin C) :
    mprod l' r (ix2 a b) = mprod l r (ix2 p b) := by
  unfold mprod
  exact Finset.sum_congr rfl fun k _ => by
    show l' (ix2 a k) * r (ix2 k b) = l (ix2 p k) * r (ix2 k b)
    rw [h k]

end Cert.Lib.MatProd

end
-- ==== Proof.LibRowBlocks.lean ====
/-
  Row blocks of a plain matrix product, over the extended reals.

  A kernel that tiles the rows of a product computes, at each tile, the product of a block of rows of the left
  operand with the whole right operand. Entry (p, q) of a product depends only on row p of the left operand, so that
  is the same block of rows of the whole product. The lemma below says it in the form a blockwise read-back meets it:
  the tile's operands are given as arrays of their own (`x0`, `x1`) together with how they read the whole arrays
  (`x0` holds the rows of `X` from row `o` on, `x1` is `W`), and the two entries are related by coordinate equations, for any
  extents. No finiteness is involved: both sides are the same sum of the same products.
-/
import proofs.«127349_j28578712387808_2_alg».proof.Proof.LibMatProd

noncomputable section

namespace Cert.Lib.RowBlocks

open Idealize.ShloMosaic Idealize.ShloMosaic.ValueIdx Cert.Lib.MatProd

/-- A product of a block of rows is that block of rows of the product: if `x0` holds the rows of `X` from row `o`
    on and `x1` is `W`, then entry `j` of `x0 · x1` is the entry of `X · W` `o` rows further down. -/
theorem rows_of_product {R R' K C : ℕ} (X : FVec Ideal (Sh R K) .f32) (W : FVec Ideal (Sh K C) .f32)
    (x0 : FVec Ideal (Sh R' K) .f32) (x1 : FVec Ideal (Sh K C) .f32) (o : ℕ)
    (h0 : ∀ (y : (Sh R' K).Idx) (z : (Sh R K).Idx), (z 0).val = o + (y 0).val → (z 1).val = (y 1).val → x0 y = X z)
    (h1 : x1 = W)
    (j : (Sh R' C).Idx) (i : (Sh R C).Idx) (hi0 : (i 0).val = o + (j 0).val) (hi1 : (i 1).val = (j 1).val) :
    mprod x0 x1 j = mprod X W i := by
  subst h1
  unfold mprod
  refine Finset.sum_congr rfl fun k _ => ?_
  have e : col j = col i := Fin.ext hi1.symm
  rw [h0 (ix2 (row j) k) (ix2 (row i) k) hi0 rfl, e]

end Cert.Lib.RowBlocks

end
-- ==== Proof.RegionValue.lean ====
/-
  What each dense kernel leaves in its output array: the whole matrix product.

  Each kernel walks ten row blocks of 10000 rows. At block t it loads rows 10000·t … 10000·t + 9999 of the left
  operand and the whole right operand, rounds both to bf16 (the identity on the extended reals), multiplies them
  into a zero accumulator and stores the 10000-row result as rows 10000·t … of the output. Entry (p, q) of a product
  depends only on row p of the left operand, so the block's product IS that block of rows of the whole product; the
  ten blocks tile the output, so the output array ends as the whole product `mprod X W` of the arrays the kernel
  found on entry — whatever those are (`V`).
-/
import proofs.«127349_j28578712387808_2_alg».proof.Proof.Gen.KernelIdeal.Frame
import proofs.«127349_j28578712387808_2_alg».proof.Proof.LibMatProd
import proofs.«127349_j28578712387808_2_alg».proof.Proof.LibRowBlocks
import Idealize.ShloMosaic.Lib.Pipeline.Value

noncomputable section

namespace Cert.Graph.Region

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Lib.PlainDot Cert.Lib.MatProd Cert.Lib.RowBlocks

/-- Every load and store of the two bodies starts at the corner of its block. -/
theorem off_zero : (![0, 0] : Fin 2 → Nat) = fun _ => 0 := funext fun a => by fin_cases a <;> rfl

/-! ## The first product: [100000, 128] by [128, 32] -/

/-- The first kernel's dimension record reads its operands plainly. -/
theorem reads0 : Reads (R := 10000) (K := 128) (C := 32) dot_S10000x128_S128x32_S10000x32_1_0_0_1_n_n :=
  ⟨rfl, rfl, fun _ _ => rfl, fun _ _ => rfl, fun _ _ => rfl, fun _ _ => rfl⟩

/-- The body's stored value is the product of the two loaded blocks (rounding to bf16 changes nothing here). -/
theorem pay0_eq (x0 : Vec Ideal S10000x128 .f32) (x1 : Vec Ideal S128x32 .f32) :
    k0_pay1 x0 x1 = mprod (R := 10000) (K := 128) (C := 32) x0 x1 :=
  matmul_eq_mprod reads0 none x0 x1

/-- Where the three windows' blocks sit, decided over the ten points: the left operand's and the output's block t
    start at row block t, column block 0; the right operand's only block is the whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the whole product of the arrays found on entry. -/
theorem flushed0_eq (c : Dev nD) (t : Fin cfg0.N) :
    (dat0 V c).flushed 2 t = ((cfg0.win 2).blk t).view.read (Elt Ideal)
      (mprod (R := 100000) (K := 128) (C := 32) (V c main_arg0) (V c main_arg2)) := by
  show (cfg0.win 2).cut (grid0.coords t) ((dat0 V c).after 2 t) = _
  rw [after0_2]
  unfold out0_2
  rw [View.canon_unit_zero off_zero]
  simp only [View.ld_unit_zero (S := S10000x128) off_zero, View.ld_unit_zero (S := S128x32) off_zero]
  rw [pay0_eq]
  obtain ⟨e0, e1, e2, e3, e4, e5⟩ := idx_facts0 t
  funext j
  refine rows_of_product (V c main_arg0) (V c main_arg2) (iblk0 V c 0 t) (iblk0 V c 1 t) (t.val * 10000) ?_ ?_ j
    (((cfg0.win 2).blk t).view.emb j) ?_ ?_
  · intro y z hz0 hz1
    show V c main_arg0 (((cfg0.win 0).blk t).view.emb y) = V c main_arg0 z
    refine congrArg _ (funext fun a => Fin.ext ?_)
    match a with
    | ⟨0, _⟩ => show win0_0.index t (0 : Fin 2) * 10000 + 1 * (y 0).val = (z 0).val; omega
    | ⟨1, _⟩ => show win0_0.index t (1 : Fin 2) * 128 + 1 * (y 1).val = (z 1).val; omega
  · funext y
    show V c main_arg2 (((cfg0.win 1).blk t).view.emb y) = V c main_arg2 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 32 + 1 * (y 1).val = (y 1).val; omega
  · show win0_2.index t (0 : Fin 2) * 10000 + 1 * (j 0).val = t.val * 10000 + (j 0).val; omega
  · show win0_2.index t (1 : Fin 2) * 32 + 1 * (j 1).val = (j 1).val; omega

/-- An index of the output array is in point t's block iff each coordinate is in the block's range on its axis. -/
theorem mem_blk0 (t : Fin cfg0.N) (i : S100000x32.Idx) :
    i ∈ ((cfg0.win 2).blk t).view.set ↔ ∀ a : Fin 2, win0_2.index t a * S10000x32.size a ≤ (i a).val
      ∧ (i a).val < win0_2.index t a * S10000x32.size a + S10000x32.size a := by
  show i ∈ ((View.whole main_v28).slice (win0_2.rect t)).set ↔ _
  rw [View.set_slice_whole, Rect.mem_set_unit]
  exact Iff.rfl

/-- The ten row blocks tile the output: row p lies in block p / 10000. -/
theorem cover0 (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  let t : Fin cfg0.N := ⟨(i 0).val / 10000, by rw [show cfg0.N = 10 from N_0]; omega⟩
  obtain ⟨-, -, -, -, e4, e5⟩ := idx_facts0 t
  have ht : t.val = (i 0).val / 10000 := rfl
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 32 ≤ (i 1).val ∧ (i 1).val < win0_2.index t (1 : Fin 2) * 32 + 32; omega

/-- THE FIRST PRODUCT'S ARRAY after the region: the whole product of the arrays found on entry. -/
theorem final0 (c : Dev nD) :
    (dat0 V c).arrAt 2 cfg0.N = mprod (R := 100000) (K := 128) (C := 32) (V c main_arg0) (V c main_arg2) :=
  (dat0 V c).arrAt_eq_of_cover 2 _ (fun t _ => flushed0_eq V c t) cover0

/-! ## The second product: [100000, 32] by [32, 1] -/

/-- The second kernel's dimension record reads its operands plainly. -/
theorem reads1 : Reads (R := 10000) (K := 32) (C := 1) dot_S10000x32_S32x1_S10000x1_1_0_0_1_n_n :=
  ⟨rfl, rfl, fun _ _ => rfl, fun _ _ => rfl, fun _ _ => rfl, fun _ _ => rfl⟩

/-- The body's stored value is the product of the two loaded blocks (a cast to the same shape and the rounding to
    bf16 change nothing). -/
theorem pay1_eq (x0 : Vec Ideal S10000x32 .f32) (x1 : Vec Ideal S32x1 .f32) :
    k1_pay1 x0 x1 = mprod (R := 10000) (K := 32) (C := 1) x0 x1 := by
  unfold k1_pay1
  rw [shapeCast_self]
  exact matmul_eq_mprod reads1 none x0 x1

/-- Where the three windows' blocks sit, decided over the ten points. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product of the arrays found on entry. -/
theorem flushed1_eq (c : Dev nD) (t : Fin cfg1.N) :
    (dat1 V c).flushed 2 t = ((cfg1.win 2).blk t).view.read (Elt Ideal)
      (mprod (R := 100000) (K := 32) (C := 1) (V c main_v44) (V c main_arg4)) := by
  show (cfg1.win 2).cut (grid1.coords t) ((dat1 V c).after 2 t) = _
  rw [after1_2]
  unfold out1_2
  rw [View.canon_unit_zero off_zero]
  simp only [View.ld_unit_zero (S := S10000x32) off_zero, View.ld_unit_zero (S := S32x1) off_zero]
  rw [pay1_eq]
  obtain ⟨e0, e1, e2, e3, e4, e5⟩ := idx_facts1 t
  funext j
  refine rows_of_product (V c main_v44) (V c main_arg4) (iblk1 V c 0 t) (iblk1 V c 1 t) (t.val * 10000) ?_ ?_ j
    (((cfg1.win 2).blk t).view.emb j) ?_ ?_
  · intro y z hz0 hz1
    show V c main_v44 (((cfg1.win 0).blk t).view.emb y) = V c main_v44 z
    refine congrArg _ (funext fun a => Fin.ext ?_)
    match a with
    | ⟨0, _⟩ => show win1_0.index t (0 : Fin 2) * 10000 + 1 * (y 0).val = (z 0).val; omega
    | ⟨1, _⟩ => show win1_0.index t (1 : Fin 2) * 32 + 1 * (y 1).val = (z 1).val; omega
  · funext y
    show V c main_arg4 (((cfg1.win 1).blk t).view.emb y) = V c main_arg4 y
    refine congrArg _ (funext fun a => Fin.ext ?_)
    match a with
    | ⟨0, _⟩ => show win1_1.index t (0 : Fin 2) * 32 + 1 * (y 0).val = (y 0).val; omega
    | ⟨1, _⟩ => show win1_1.index t (1 : Fin 2) * 1 + 1 * (y 1).val = (y 1).val; omega
  · show win1_2.index t (0 : Fin 2) * 10000 + 1 * (j 0).val = t.val * 10000 + (j 0).val; omega
  · show win1_2.index t (1 : Fin 2) * 1 + 1 * (j 1).val = (j 1).val; omega

/-- An index of the output array is in point t's block iff each coordinate is in the block's range on its axis. -/
theorem mem_blk1 (t : Fin cfg1.N) (i : S100000x1.Idx) :
    i ∈ ((cfg1.win 2).blk t).view.set ↔ ∀ a : Fin 2, win1_2.index t a * S10000x1.size a ≤ (i a).val
      ∧ (i a).val < win1_2.index t a * S10000x1.size a + S10000x1.size a := by
  show i ∈ ((View.whole main_v45).slice (win1_2.rect t)).set ↔ _
  rw [View.set_slice_whole, Rect.mem_set_unit]
  exact Iff.rfl

/-- The ten row blocks tile the output: row p lies in block p / 10000. -/
theorem cover1 (i : S100000x1.Idx) :
    ∃ t : Fin cfg1.N, (cfg1.win 2).flush t = true ∧ i ∈ ((cfg1.win 2).blk t).view.set := by
  have hi0 : (i 0).val < 100000 := (i 0).isLt
  have hi1 : (i 1).val < 1 := (i 1).isLt
  let t : Fin cfg1.N := ⟨(i 0).val / 10000, by rw [show cfg1.N = 10 from N_1]; omega⟩
  obtain ⟨-, -, -, -, e4, e5⟩ := idx_facts1 t
  have ht : t.val = (i 0).val / 10000 := rfl
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 1 ≤ (i 1).val ∧ (i 1).val < win1_2.index t (1 : Fin 2) * 1 + 1; omega

/-- THE SECOND PRODUCT'S ARRAY after the region: the whole product of the arrays found on entry. -/
theorem final1 (c : Dev nD) :
    (dat1 V c).arrAt 2 cfg1.N = mprod (R := 100000) (K := 32) (C := 1) (V c main_v44) (V c main_arg4) :=
  (dat1 V c).arrAt_eq_of_cover 2 _ (fun t _ => flushed1_eq V c t) cover1

end Cert.Graph.Region

end
-- ==== Proof.GraphSpec.lean ====
/-
  The two results of the network as functions of its six arguments, over the extended reals.

  `hidden` is the first layer's output: the node features times W1, passed along the graph (sum over the messages
  into a node of the source's row times the message's weight), plus b1, then max(·, 0). `scores` is the second
  layer's: `hidden` times W2, passed along the same graph with the same weights, plus b2, read as a vector. The dense
  products are plain sums over the inner axis (`mprod`); the graph steps are the stage functions.
-/
import proofs.«127349_j28578712387808_2_alg».proof.Proof.GraphStages
import proofs.«127349_j28578712387808_2_alg».proof.Proof.LibMatProd

noncomputable section

namespace Cert.Graph

open Idealize.ShloMosaic Cert.KernelIdeal Cert.Lib.MatProd

/-- The first result, [100000, 32]. -/
def hidden (x : Arr Ideal S100000x128 .f32) (e : Arr Ideal S2x3200000 .i32) (w1 : Arr Ideal S128x32 .f32)
    (b1 : Arr Ideal S32 .f32) : Arr Ideal S100000x32 .f32 :=
  layer1 (mprod (R := 100000) (K := 128) (C := 32) x w1) e b1

/-- The second result, [100000]. -/
def scores (x : Arr Ideal S100000x128 .f32) (e : Arr Ideal S2x3200000 .i32) (w1 : Arr Ideal S128x32 .f32)
    (b1 : Arr Ideal S32 .f32) (w2 : Arr Ideal S32x1 .f32) (b2 : Arr Ideal S1 .f32) : Arr Ideal S100000 .f32 :=
  layer2 (mprod (R := 100000) (K := 32) (C := 1) (hidden x e w1 b1) w2) e b2

end Cert.Graph

end
-- ==== Proof.KernelValue.lean ====
/-
  The kernel program computes `hidden` and `scores`.

  The contents of the buffers are followed through the six segments of the run, from the launch memory `m`:
  after the first host stretch the message sources, destinations and weights are functions of the edge array and
  the arguments are untouched; the first kernel leaves x · W1 in its output array and nothing else changes; the
  second stretch and the `max(·, 0)` call leave `hidden`; the second kernel leaves hidden · W2; the last stretch
  leaves `scores` and does not touch `hidden`.
-/
import proofs.«127349_j28578712387808_2_alg».proof.Proof.KernelRun
import proofs.«127349_j28578712387808_2_alg».proof.Proof.HostStretches
import proofs.«127349_j28578712387808_2_alg».proof.Proof.RegionValue
import proofs.«127349_j28578712387808_2_alg».proof.Proof.GraphSpec

noncomputable section

namespace Cert.Graph.KernelValue

open Idealize.ShloMosaic Idealize.ShloMosaic.TcCoe Idealize.SL.Sem
open Idealize.ShloMosaic.Pipeline (Dat)
open Cert.KernelIdeal Cert.KernelIdeal.Gen Cert.Graph Cert.Graph.Host Cert.Graph.Region Cert.Lib.MatProd

variable (m : (ℓ : Loc nD τ sig) → Buf (Elt Ideal) ℓ) (ρ : Dev nD → PrngReg) (c : Dev nD)

/-- The six arguments as launched on core c: features, edge array, W1, b1, W2, b2. -/
abbrev aX := m ((c : Thread nD τ).loc main_arg0)
abbrev aE := m ((c : Thread nD τ).loc main_arg1)
abbrev aW1 := m ((c : Thread nD τ).loc main_arg2)
abbrev aB1 := m ((c : Thread nD τ).loc main_arg3)
abbrev aW2 := m ((c : Thread nD τ).loc main_arg4)
abbrev aB2 := m ((c : Thread nD τ).loc main_arg5)

/-! ## After the first stretch -/

theorem W1_src : W1 m ρ c (Proc.devRef .tc main_v5) = srcAll (aE m c) := first_src (W0 m ρ c)
theorem W1_dst : W1 m ρ c (Proc.devRef .tc main_v6) = dstAll (aE m c) := first_dst (W0 m ρ c)
theorem W1_nrm : W1 m ρ c (Proc.devRef .tc main_v27) = normCol (srcAll (aE m c)) (dstAll (aE m c)) := first_nrm (W0 m ρ c)
theorem W1_arg0 : W1 m ρ c (Proc.devRef .tc main_arg0) = (aX m c) := first_arg0 (W0 m ρ c)
theorem W1_arg2 : W1 m ρ c (Proc.devRef .tc main_arg2) = (aW1 m c) := first_arg2 (W0 m ρ c)
theorem W1_arg3 : W1 m ρ c (Proc.devRef .tc main_arg3) = (aB1 m c) := first_arg3 (W0 m ρ c)
theorem W1_arg4 : W1 m ρ c (Proc.devRef .tc main_arg4) = (aW2 m c) := first_arg4 (W0 m ρ c)
theorem W1_arg5 : W1 m ρ c (Proc.devRef .tc main_arg5) = (aB2 m c) := first_arg5 (W0 m ρ c)

/-! ## After the first kernel: x · W1 in its output array, everything else as before -/

theorem W2_table : W2 m ρ c (Proc.devRef .tc main_v28) = mprod (R := 100000) (K := 128) (C := 32) (aX m c) (aW1 m c) := by
  refine (W2_arr m ρ c 2).trans ((final0 (V1 m ρ) c).trans ?_)
  rw [show V1 m ρ c main_arg0 = (aX m c) from W1_arg0 m ρ c, show V1 m ρ c main_arg2 = (aW1 m c) from W1_arg2 m ρ c]
theorem W2_src : W2 m ρ c (Proc.devRef .tc main_v5) = srcAll (aE m c) := (W2_of_ne m ρ c main_v5 (by decide)).trans (W1_src m ρ c)
theorem W2_dst : W2 m ρ c (Proc.devRef .tc main_v6) = dstAll (aE m c) := (W2_of_ne m ρ c main_v6 (by decide)).trans (W1_dst m ρ c)
theorem W2_nrm : W2 m ρ c (Proc.devRef .tc main_v27) = normCol (srcAll (aE m c)) (dstAll (aE m c)) :=
  (W2_of_ne m ρ c main_v27 (by decide)).trans (W1_nrm m ρ c)
theorem W2_arg3 : W2 m ρ c (Proc.devRef .tc main_arg3) = (aB1 m c) := (W2_of_ne m ρ c main_arg3 (by decide)).trans (W1_arg3 m ρ c)
theorem W2_arg4 : W2 m ρ c (Proc.devRef .tc main_arg4) = (aW2 m c) := (W2_of_ne m ρ c main_arg4 (by decide)).trans (W1_arg4 m ρ c)
theorem W2_arg5 : W2 m ρ c (Proc.devRef .tc main_arg5) = (aB2 m c) := (W2_of_ne m ρ c main_arg5 (by decide)).trans (W1_arg5 m ρ c)

/-! ## After the second stretch and the `max(·, 0)` call: `hidden` -/

theorem W4_hidden : W4 m ρ c (Proc.devRef .tc main_v44) = hidden (aX m c) (aE m c) (aW1 m c) (aB1 m c) := by
  refine (second_out (W2 m ρ c)).trans ?_
  rw [W2_table, W2_src, W2_dst, W2_nrm, W2_arg3]
  rfl
theorem W4_src : W4 m ρ c (Proc.devRef .tc main_v5) = srcAll (aE m c) := (second_src (W2 m ρ c)).trans (W2_src m ρ c)
theorem W4_dst : W4 m ρ c (Proc.devRef .tc main_v6) = dstAll (aE m c) := (second_dst (W2 m ρ c)).trans (W2_dst m ρ c)
theorem W4_nrm : W4 m ρ c (Proc.devRef .tc main_v27) = normCol (srcAll (aE m c)) (dstAll (aE m c)) :=
  (second_nrm (W2 m ρ c)).trans (W2_nrm m ρ c)
theorem W4_arg4 : W4 m ρ c (Proc.devRef .tc main_arg4) = (aW2 m c) := (second_arg4 (W2 m ρ c)).trans (W2_arg4 m ρ c)
theorem W4_arg5 : W4 m ρ c (Proc.devRef .tc main_arg5) = (aB2 m c) := (second_arg5 (W2 m ρ c)).trans (W2_arg5 m ρ c)

/-! ## After the second kernel: hidden · W2 in its output array; `hidden` (an input of the kernel) as before -/

theorem W5_table : W5 m ρ c (Proc.devRef .tc main_v45)
    = mprod (R := 100000) (K := 32) (C := 1) (hidden (aX m c) (aE m c) (aW1 m c) (aB1 m c)) (aW2 m c) := by
  refine (W5_arr m ρ c 2).trans ((final1 (V4 m ρ) c).trans ?_)
  rw [show V4 m ρ c main_v44 = hidden (aX m c) (aE m c) (aW1 m c) (aB1 m c) from W4_hidden m ρ c, show V4 m ρ c main_arg4 = (aW2 m c) from W4_arg4 m ρ c]
theorem W5_hidden : W5 m ρ c (Proc.devRef .tc main_v44) = hidden (aX m c) (aE m c) (aW1 m c) (aB1 m c) :=
  ((W5_arr m ρ c 0).trans (((dat1 (V4 m ρ) c).arrAt_in 0 rfl _).trans (A_eq1 (V4 m ρ) c 0))).trans (W4_hidden m ρ c)
theorem W5_src : W5 m ρ c (Proc.devRef .tc main_v5) = srcAll (aE m c) := (W5_of_ne m ρ c main_v5 (by decide)).trans (W4_src m ρ c)
theorem W5_dst : W5 m ρ c (Proc.devRef .tc main_v6) = dstAll (aE m c) := (W5_of_ne m ρ c main_v6 (by decide)).trans (W4_dst m ρ c)
theorem W5_nrm : W5 m ρ c (Proc.devRef .tc main_v27) = normCol (srcAll (aE m c)) (dstAll (aE m c)) :=
  (W5_of_ne m ρ c main_v27 (by decide)).trans (W4_nrm m ρ c)
theorem W5_arg5 : W5 m ρ c (Proc.devRef .tc main_arg5) = (aB2 m c) := (W5_of_ne m ρ c main_arg5 (by decide)).trans (W4_arg5 m ρ c)

/-! ## After the last stretch: the two results -/

theorem W6_hidden : W6 m ρ c (Proc.devRef .tc main_v44) = hidden (aX m c) (aE m c) (aW1 m c) (aB1 m c) :=
  (third_h (W5 m ρ c)).trans (W5_hidden m ρ c)

theorem W6_scores : W6 m ρ c (Proc.devRef .tc main_v60) = scores (aX m c) (aE m c) (aW1 m c) (aB1 m c) (aW2 m c) (aB2 m c) := by
  refine (third_out (W5 m ρ c)).trans ?_
  rw [W5_table, W5_src, W5_dst, W5_nrm, W5_arg5]
  rfl

/-! ## The run -/

/-- Every weakly fair execution of the kernel program at the ideal instance ends with the two results at `hidden`
    and `scores` of the launch contents, and the arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v44)
        = hidden (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v60)
        = scores (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun r h c => ⟨(h c).1.trans (W6_hidden m ρ c), (h c).2.1.trans (W6_scores m ρ c), (h c).2.2⟩)
    (Cert.Graph.KernelRun.run_named m ρ)

end Cert.Graph.KernelValue

end
-- ==== Proof.RefValue.lean ====
/-
  The reference program computes `hidden` and `scores`.

  The reference runs the same graph steps on the same operands as the kernel program; it differs in two places
  only. Its two dense products are single `dot_general`s over the whole arrays — plain sums over the inner axis,
  so `mprod` again — and it works out the message sources, destinations and weights a second time for the second
  layer, from the same edge array by the same operations, which gives the same arrays.
-/
import proofs.«127349_j28578712387808_2_alg».proof.Proof.Gen.ReferenceIdeal.Run
import proofs.«127349_j28578712387808_2_alg».proof.Proof.GraphSpec

noncomputable section

namespace Cert.Graph.Ref

open Idealize.ShloMosaic Idealize.ShloMosaic.TcCoe Idealize.SL.Sem
open Cert.Graph Cert.Lib.PlainDot Cert.Lib.MatProd

/-- The reference's two dimension records read their operands plainly. -/
theorem reads_a : Reads (R := 100000) (K := 128) (C := 32) Cert.ReferenceIdeal.dot_S100000x128_S128x32_S100000x32_1_0_0_1_n_n :=
  ⟨rfl, rfl, fun _ _ => rfl, fun _ _ => rfl, fun _ _ => rfl, fun _ _ => rfl⟩
theorem reads_b : Reads (R := 100000) (K := 32) (C := 1) Cert.ReferenceIdeal.dot_S100000x32_S32x1_S100000x1_1_0_0_1_n_n :=
  ⟨rfl, rfl, fun _ _ => rfl, fun _ _ => rfl, fun _ _ => rfl, fun _ _ => rfl⟩

section Shape

variable {F : FTy → Type} [FloatOps F]
variable (m : (ℓ : Loc Cert.ReferenceIdeal.nD Cert.ReferenceIdeal.τ Cert.ReferenceIdeal.sig) → Buf (Elt F) ℓ)
  (c : Dev Cert.ReferenceIdeal.nD)

/-- The first result's term is the first layer over the table `dot_general x W1`. -/
theorem res0_shape : Cert.ReferenceIdeal.Value.res_main_v44 (F := F) m c
    = layer1 (Host.dotGeneral Cert.ReferenceIdeal.dot_S100000x128_S128x32_S100000x32_1_0_0_1_n_n none
        (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg2)))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg3)) := by
  unfold Cert.ReferenceIdeal.Value.res_main_v44
  rfl

/-- The second result's term is the second layer over the table `dot_general h W2`, `h` the first result's term. -/
theorem res1_shape : Cert.ReferenceIdeal.Value.res_main_v84 (F := F) m c
    = layer2 (Host.dotGeneral Cert.ReferenceIdeal.dot_S100000x32_S32x1_S100000x1_1_0_0_1_n_n none
        (Cert.ReferenceIdeal.Value.res_main_v44 (F := F) m c)
        (m ((c.tc : Thread Cert.ReferenceIdeal.nD Cert.ReferenceIdeal.τ).loc Cert.ReferenceIdeal.main_arg4)))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg5)) := by
  unfold Cert.ReferenceIdeal.Value.res_main_v84 Cert.ReferenceIdeal.Value.res_main_v44
  rfl

end Shape

variable (m : (ℓ : Loc Cert.ReferenceIdeal.nD Cert.ReferenceIdeal.τ Cert.ReferenceIdeal.sig) → Buf (Elt Ideal) ℓ)
  (c : Dev Cert.ReferenceIdeal.nD)

/-- At the ideal instance the first result is `hidden` of the launch contents. -/
theorem res0_eq : Cert.ReferenceIdeal.Value.res_main_v44 (F := Ideal) m c
    = hidden (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3)) := by
  rw [res0_shape]
  unfold hidden
  exact congrArg (fun t => layer1 t _ _) (dotGeneral_eq_mprod reads_a none _ _ _)

/-- At the ideal instance the second result is `scores` of the launch contents. -/
theorem res1_eq : Cert.ReferenceIdeal.Value.res_main_v84 (F := Ideal) m c
    = scores (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3))
        (m ((c.tc : Thread Cert.ReferenceIdeal.nD Cert.ReferenceIdeal.τ).loc Cert.ReferenceIdeal.main_arg4))
        (m ((c.tc : Thread Cert.ReferenceIdeal.nD Cert.ReferenceIdeal.τ).loc Cert.ReferenceIdeal.main_arg5)) := by
  rw [res1_shape, res0_eq]
  unfold scores
  exact congrArg (fun t => layer2 t _ _) (dotGeneral_eq_mprod reads_b none _ _ _)

end Cert.Graph.Ref

end
-- ==== Proof.lean ====
/-
  A two-layer graph convolution over 100000 nodes and 3200000 edges, a Pallas kernel program against plain jnp.

  Both programs compute, for node features x [100000, 128], an edge array [2, 3200000], weights W1 [128, 32],
  W2 [32, 1] and biases b1 [32], b2 [1]:

    hidden = max(A (x · W1) + b1, 0)            [100000, 32]
    scores = A (hidden · W2) + b2               [100000]

  where A passes a node table along the graph: every edge (s, d), and one self-loop per node, adds row s of the
  table, scaled by deg(s)^(-1/2) · deg(d)^(-1/2), into row d, deg counting the messages that arrive at a node.

  The graph steps (gather by source, scale, scatter-add by destination, bias, max) are the same host operations on
  the same operands in both programs, so they are named once as whole-array functions and both programs are read
  back to those same terms; nothing about them is ever evaluated. The programs differ in two places. The kernel
  program computes each dense product in a Pallas kernel that walks ten blocks of 10000 rows, rounding the operands
  to bf16 (the identity on the extended reals) and multiplying into a zero accumulator, where the reference applies
  one dot_general to the whole arrays: entry (p, q) of either is the plain sum over k of l(p, k) · r(k, q), and
  a block of rows of a product depends only on that block of rows of the left operand. And the kernel program works
  out the message weights once where the reference does so once per layer, from the same edge array by the same
  operations. No law used needs the inputs finite: commuting nothing, regrouping nothing, the two sides are the
  same sums of the same products, so the precondition is never opened.

  The word-level kernel program is only claimed to run with its arguments unchanged (its generated frame); it has
  no rewritten operation, so the statement that the idealized program is its sanctioned idealization is empty.
-/
import proofs.«127349_j28578712387808_2_alg».proof.Defs
import proofs.«127349_j28578712387808_2_alg».proof.Proof.Gen.Kernel
import proofs.«127349_j28578712387808_2_alg».proof.Proof.Gen.Kernel.Skeleton
import proofs.«127349_j28578712387808_2_alg».proof.Proof.Gen.Kernel.Launch
import proofs.«127349_j28578712387808_2_alg».proof.Proof.Gen.Kernel.Points
import proofs.«127349_j28578712387808_2_alg».proof.Proof.Gen.Kernel.Frame
import proofs.«127349_j28578712387808_2_alg».proof.Proof.Gen.KernelIdeal
import proofs.«127349_j28578712387808_2_alg».proof.Proof.Gen.KernelIdeal.Skeleton
import proofs.«127349_j28578712387808_2_alg».proof.Proof.Gen.KernelIdeal.Launch
import proofs.«127349_j28578712387808_2_alg».proof.Proof.Gen.KernelIdeal.Points
import proofs.«127349_j28578712387808_2_alg».proof.Proof.Gen.KernelIdeal.Frame
import proofs.«127349_j28578712387808_2_alg».proof.Proof.Gen.ReferenceIdeal
import proofs.«127349_j28578712387808_2_alg».proof.Proof.Gen.Pre_finite_inputs
import proofs.«127349_j28578712387808_2_alg».proof.Proof.Gen.ReferenceIdeal.Run
import proofs.«127349_j28578712387808_2_alg».proof.Proof.KernelValue
import proofs.«127349_j28578712387808_2_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the six arguments both programs end with `hidden` and `scores` of those arguments. -/
theorem algebraic : Cert.algebraic_KernelIdeal_ReferenceIdeal := by
  intro m ρ m' ρ' _ hagree
  refine ⟨_, _, Cert.Graph.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.Graph.Ref.res0_eq, (hagree c).1, (hagree c).2.1, (hagree c).2.2.1, (hagree c).2.2.2.1]
  · rw [Cert.Graph.Ref.res1_eq, (hagree c).1, (hagree c).2.1, (hagree c).2.2.1, (hagree c).2.2.2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
